-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x128x32x32 : Shape := ⟨5, ![16, 32, 128, 32, 32]⟩
abbrev S_ : Shape := ⟨0, ![]⟩

class Facts : Prop where
  bcast_S_S16x32x128x32x32 : S_.BroadcastsInDim S16x32x128x32x32 (![] : Fin 0 → Fin S16x32x128x32x32.rank)
  reducesTo_S16x32x128x32x32_S_d0_1_2_3_4 : S16x32x128x32x32.ReducesTo [0, 1, 2, 3, 4] S_
  h_S_ : 0 < S_.numel

variable [Facts]

def fn {F : FTy → Type} [FloatOps F] (main_arg0 : FVec F S16x32x128x32x32 .f32) : IVec S_ 1 :=
  let main_v0 : FVec F S16x32x128x32x32 .f32 := Host.absf main_arg0
  let main_cst : FVec F S_ .f32 := constant S_ .f32 0x7F800000#32
  let main_v1 : FVec F S16x32x128x32x32 .f32 := broadcastInDim S16x32x128x32x32 ![] bcast_S_S16x32x128x32x32 main_cst
  let main_v2 : IVec S16x32x128x32x32 1 := cmpf .olt main_v0 main_v1
  let main_c : IVec S_ 1 := constantI S_ 1 1#1
  let main_v3 : IVec S_ 1 := (fun x v => Host.reduce IntOp.andi x v reducesTo_S16x32x128x32x32_S_d0_1_2_3_4 h_S_) main_v2 main_c
  main_v3
-- ==== Kernel.lean ====
abbrev S16x32x128x32x32 : Shape := ⟨5, ![16, 32, 128, 32, 32]⟩
abbrev S524288x128 : Shape := ⟨2, ![524288, 128]⟩
abbrev S16384x128 : Shape := ⟨2, ![16384, 128]⟩

abbrev nBuf : Space → Nat
  | .hbm => 4
  | .vmem => 4
  | .smem => 0
  | _ => 0

abbrev bufTy : (tb : Table) → Fin (tcTables nBuf tb) → BufTy
  | .hbm, ⟨0, _⟩ => ⟨S16x32x128x32x32, .f32⟩
  | .hbm, ⟨1, _⟩ => ⟨S524288x128, .f32⟩
  | .hbm, ⟨2, _⟩ => ⟨S524288x128, .f32⟩
  | .hbm, ⟨3, _⟩ => ⟨S16x32x128x32x32, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | _, _ => ⟨S16x32x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x32x128x32x32_S524288x128 : S16x32x128x32x32.ShapeCasts S524288x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  natLt_1_32 : 1 < 32
  shapeCasts_S524288x128_S16x32x128x32x32 : S524288x128.ShapeCasts S16x32x128x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S524288x128.size a
  hwx0_1 : ∀ i : grid0.Coords, EltTy.bits .f32 = 32 ∨ (Rect.block (s := S524288x128) S16384x128.size (cc0_transform_1 i) (hinb0_1 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16x32x128x32x32 : Shape := ⟨5, ![16, 32, 128, 32, 32]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x32x128x32x32, .f32⟩
  | .hbm, ⟨1, _⟩ => ⟨S_, .f32⟩
  | .hbm, ⟨2, _⟩ => ⟨S16x32x128x32x32, .f32⟩
  | .hbm, ⟨3, _⟩ => ⟨S16x32x128x32x32, .f32⟩
  | .hbm, ⟨4, _⟩ => ⟨S_, .f32⟩
  | .hbm, ⟨5, _⟩ => ⟨S16x32x128x32x32, .f32⟩
  | .hbm, ⟨6, _⟩ => ⟨S16x32x128x32x32, .i1⟩
  | .hbm, ⟨7, _⟩ => ⟨S16x32x128x32x32, .f32⟩
  | _, _ => ⟨S16x32x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S16x32x128x32x32 : S_.BroadcastsInDim S16x32x128x32x32 (![] : Fin 0 → Fin S16x32x128x32x32.rank)

variable [Facts₀]

class Facts : Prop extends Facts₀ where

variable [Facts]
-- ==== Proof.Spike.lean ====
/-
  The spike indicator of a leaky integrate-and-fire layer whose membrane potential is reset before every step:
  an entry fires (value 1) exactly when its input current reaches the threshold, and is silent (value 0) otherwise.
  Here the indicator is defined once on the extended reals, and the two scalar spellings the programs use are shown
  to be this one function:
    * the kernel widens the one-bit comparison to 32 bits and reads the word as a SIGNED integer;
    * the reference first adds the (zero) decayed initial potential, then reads the one-bit comparison as an
      UNSIGNED integer.
  A one-bit word widened by zeros is 0 or 1 whichever way it is read, and 0 + y = y on every extended real
  (both infinities included), so no finiteness of y is needed.
-/
import Idealize.ShloMosaic.PureOps.Ideal
import Idealize.ShloMosaic.PureOps.Ideal.Laws

noncomputable section

namespace Cert.Spike

open Idealize.ShloMosaic

/-- The firing threshold: the number the f32 word `0x3F800000` denotes (it is never evaluated: both programs
    compare against this same word). -/
def threshold : EReal := Ideal.ofBits .f32 0x3F800000#32

/-- The spike indicator: `1` when `threshold ≤ y`, else `0`. -/
def spike (y : EReal) : EReal := (((Ideal.cmp .oge y threshold).toNat : ℝ) : EReal)

/-- A one-bit word widened by zeros to 32 bits, read as a signed integer, is the bit itself. -/
theorem toInt_setWidth_bit (b : BitVec 1) : (b.setWidth 32).toInt = (b.toNat : ℤ) := by
  revert b; decide

/-- The kernel's spelling: compare, widen by zeros, convert the signed word. -/
theorem kernel_form (y : EReal) :
    FloatOps.sitofp (F := Ideal) .f32 ((FloatOps.cmpf (F := Ideal) (φ := .f32) .oge y (FloatOps.ofBits .f32 0x3F800000#32)).setWidth 32)
      = spike y := by
  show (((BitVec.setWidth 32 (Ideal.cmp .oge y threshold)).toInt : ℝ) : EReal) = _
  rw [toInt_setWidth_bit]
  rfl

/-- The reference's spelling: add the zero initial potential, compare, convert the unsigned bit. -/
theorem reference_form (y : EReal) :
    FloatOps.uitofp (F := Ideal) .f32 (FloatOps.cmpf (F := Ideal) (φ := .f32) .oge
        (FloatOps.addf (F := Ideal) (φ := .f32) (FloatOps.ofBits .f32 0x00000000#32) y) (FloatOps.ofBits .f32 0x3F800000#32))
      = spike y := by
  show (((Ideal.cmp .oge (Ideal.ofBits .f32 0x00000000#32 + y) threshold).toNat : ℝ) : EReal) = _
  rw [Ideal.ofBits_zero_f32, zero_add]
  rfl

end Cert.Spike

end
-- ==== Proof.KernelPayload.lean ====
/-
  The kernel body's arithmetic, entry by entry. The body loads a block of 16384 rows by 128 lanes, compares every
  entry with the threshold, widens the bit by zeros to 32 bits and converts the signed word to a float: the value it
  stores at entry `j` of the block is the spike indicator of the loaded block's entry `j` (the body's cast of the
  block to its own shape moves nothing).
-/
import proofs.«119878_j17497696764281_2_alg».proof.Proof.Gen.KernelIdeal.Skeleton
import proofs.«119878_j17497696764281_2_alg».proof.Proof.Spike
import Idealize.ShloMosaic.Lib.Pipeline.Value

noncomputable section

namespace Cert.KernelIdeal.SpikeValue

open Cert.KernelIdeal Cert.KernelIdeal.Gen Idealize.ShloMosaic

/-- What the body stores is the spike indicator of what it loaded, entry by entry. -/
theorem payload_eq (v0 : Vec Ideal S16384x128 .f32) :
    k0_pay1 (F := Ideal) v0 = fun j => Cert.Spike.spike (v0 j) := by
  funext j
  unfold k0_pay1
  show FloatOps.sitofp (F := Ideal) .f32 ((FloatOps.cmpf (F := Ideal) (φ := .f32) .oge
      (shapeCast S16384x128 v0 shapeCasts_S16384x128_S16384x128 j) (FloatOps.ofBits .f32 0x3F800000#32)).setWidth 32) = _
  rw [shapeCast_self]
  exact Cert.Spike.kernel_form (v0 j)

end Cert.KernelIdeal.SpikeValue

end
-- ==== Proof.KernelArray.lean ====
/-
  The kernel's result array, entry by entry.

  The program lays the five-axis input current out as 524288 rows of 128 lanes, copies that matrix into the buffer the
  kernel writes, runs the kernel over 32 grid points and lays the matrix back out in the input's five-axis shape.
  Grid point `t` reads rows `16384·t … 16384·t + 16383` of the input matrix and writes the same rows of the output
  matrix, each entry the spike indicator of the entry it read (the body's arithmetic, module KernelPayload). The 32 row
  bands tile the matrix, so every entry of the output matrix is the spike indicator of the input matrix's entry; and
  laying out as a matrix and back again moves nothing, so the program's result at a five-axis index is the spike
  indicator of the input current at that same index.
-/
import proofs.«119878_j17497696764281_2_alg».proof.Proof.Gen.KernelIdeal.Frame
import proofs.«119878_j17497696764281_2_alg».proof.Proof.KernelPayload
import Idealize.ShloMosaic.Lib.Pipeline.Value
import Idealize.ShloMosaic.Lib.StableHlo.Run

set_option maxRecDepth 16384

noncomputable section

namespace Cert.KernelIdeal.SpikeValue

open Cert.KernelIdeal Cert.KernelIdeal.Gen Idealize.ShloMosaic Idealize.ShloMosaic.TcCoe Idealize.SL.Sem
open Idealize.ShloMosaic.Pipeline (Dat)
open Cert.Spike (spike)

variable (m : (ℓ : Loc nD τ sig) → Buf (Elt Ideal) ℓ) (ρ : Dev nD → PrngReg)

/-! ## One grid point -/

/-- The body's one load and one store start at the block's origin. -/
theorem origin_zero : (![0, 0] : Fin 2 → Nat) = fun _ => 0 := funext fun a => by fin_cases a <;> rfl

/-- The input's and the output's windows move together: at every grid point they sit on the same block of rows. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 32 row bands is some grid point's block (and every block spans all 128 lanes). -/
theorem band_onto : ∀ q : Fin 32, ∃ t : Fin cfg0.N, win0_1.index t = ![q.val, 0] :=
  (by decide +kernel : ∀ q : Fin 32, ∃ t : Fin grid0.N, win0_1.index t = ![q.val, 0])

/-- What grid point `t` writes back is block `t` of the matrix of spike indicators of the input matrix as the kernel
    finds it. -/
theorem flushed_eq (c : Dev nD) (t : Fin cfg0.N) :
    (dats m 0 c).flushed 1 t
      = ((cfg0.win 1).blk t).view.read (Elt Ideal) (fun i : S524288x128.Idx => spike (V m c main_v0 i)) := by
  show (cfg0.win 1).cut (grid0.coords t) ((dats m 0 c).after 1 t) = _
  rw [after0_1]
  unfold out0_1
  rw [View.canon_unit_zero origin_zero]
  simp only [View.ld_unit_zero (S := S16384x128) origin_zero]
  rw [payload_eq]
  obtain ⟨e0, e1⟩ := same_block t
  funext j
  show spike (V m c main_v0 (((cfg0.win 0).blk t).view.emb j)) = spike (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 16384 + 1 * (j 0).val = win0_1.index t (0 : Fin 2) * 16384 + 1 * (j 0).val; omega
    | ⟨1, _⟩ => show win0_0.index t (1 : Fin 2) * 128 + 1 * (j 1).val = win0_1.index t (1 : Fin 2) * 128 + 1 * (j 1).val; omega
  rw [h0]

/-! ## The 32 row bands tile the matrix -/

/-- An entry of the matrix lies in grid point `t`'s block iff each of its coordinates lies in the block's range. -/
theorem mem_band (t : Fin cfg0.N) (i : S524288x128.Idx) :
    i ∈ ((cfg0.win 1).blk t).view.set ↔ ∀ a : Fin 2, win0_1.index t a * S16384x128.size a ≤ (i a).val
      ∧ (i a).val < win0_1.index t a * S16384x128.size a + S16384x128.size a := by
  show i ∈ ((View.whole main_v1).slice (win0_1.rect t)).set ↔ _
  rw [View.set_slice_whole, Rect.mem_set_unit]
  exact Iff.rfl

/-- Row `r` lies in band `r / 16384`: every entry of the matrix is written back by some grid point. -/
theorem bands_cover (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  obtain ⟨t, ht⟩ := band_onto ⟨(i 0).val / 16384, by omega⟩
  have q0 : win0_1.index t (0 : Fin 2) = (i 0).val / 16384 := congrFun ht 0
  have q1 : win0_1.index t (1 : Fin 2) = 0 := congrFun ht 1
  refine ⟨t, flush0_1 t, ?_⟩
  rw [mem_band]
  intro a
  match a with
  | ⟨0, _⟩ => show win0_1.index t (0 : Fin 2) * 16384 ≤ (i 0).val ∧ (i 0).val < win0_1.index t (0 : Fin 2) * 16384 + 16384; omega
  | ⟨1, _⟩ => show win0_1.index t (1 : Fin 2) * 128 ≤ (i 1).val ∧ (i 1).val < win0_1.index t (1 : Fin 2) * 128 + 128; omega

/-- After the kernel the output matrix holds, at every entry, the spike indicator of the input matrix's entry. -/
theorem matrix_eq (c : Dev nD) :
    (dats m 0 c).arrAt 1 cfg0.N = (fun i : S524288x128.Idx => spike (V m c main_v0 i)) :=
  (dats m 0 c).arrAt_eq_of_cover 1 _ (fun t _ => flushed_eq m c t) bands_cover

/-! ## The layout before and after the kernel -/

/-- The input matrix the kernel finds is the input current laid out as 524288 rows of 128 lanes. -/
theorem entry_eq (c : Dev nD) :
    (V m c main_v0 : S524288x128.Idx → EReal)
      = shapeCast S524288x128 (m ((c : Thread nD τ).loc main_arg0)) shapeCasts_S16x32x128x32x32_S524288x128 := by
  show StableHlo.after hostOps0 (fun b => m (c, b)) (Proc.devRef .tc main_v0) = _
  after_results
  rfl

/-- The program's result: laid back out in the input's shape, the output matrix is the spike indicator of the input
    current, index by index. -/
theorem result_eq (c : Dev nD) :
    Pipeline.afterTail₀ cfgs (dats m) 0 (V0 m) [hostOps1] c main_v2
      = (fun i : S16x32x128x32x32.Idx => spike (m ((c : Thread nD τ).loc main_arg0) i)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (fun i : S524288x128.Idx => spike (V m c main_v0 i)) :=
    (Pipeline.withArrays_arr spec0 launch0.win.arr_inj c _ _ 1).trans (matrix_eq m c)
  rw [hw, entry_eq]
  funext i
  show spike (shapeCast S524288x128 (m ((c : Thread nD τ).loc main_arg0)) shapeCasts_S16x32x128x32x32_S524288x128
      (Shape.reshapeEquiv shapeCasts_S524288x128_S16x32x128x32x32 i)) = _
  exact congrArg spike (congrFun (shapeCast_shapeCast (m ((c : Thread nD τ).loc main_arg0))
    shapeCasts_S16x32x128x32x32_S524288x128 shapeCasts_S524288x128_S16x32x128x32x32) i)

/-! ## The run -/

/-- Every weakly fair execution of the program terminates, nothing faulting, with its result the spike indicator of
    the input current at every index, and the input current unchanged. -/
theorem run : θ_run defs (onTc (τ := τ) (main (F := Ideal))) ⟨m, fun _ => 0, ρ⟩ fun r => ∀ c : Dev nD,
      r.2.mem ((c : Thread nD τ).loc main_v2) = (fun i : S16x32x128x32x32.Idx => spike (m ((c : Thread nD τ).loc main_arg0) i))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.SpikeValue

end
-- ==== Proof.ReferenceSpike.lean ====
/-
  The reference, entry by entry. Its program adds the decayed initial potential (the constant 0) to the input
  current, compares the sum with the threshold and converts the resulting bit to a float. Read at an index `i`
  through the generated per-operation lemmas, the result is the spike indicator of the input's entry `i`.
-/
import proofs.«119878_j17497696764281_2_alg».proof.Proof.Gen.ReferenceIdeal.Read
import proofs.«119878_j17497696764281_2_alg».proof.Proof.Spike

noncomputable section

namespace Cert.ReferenceIdeal.SpikeValue

open Cert.ReferenceIdeal Cert.ReferenceIdeal.Gen Cert.ReferenceIdeal.Read Idealize.ShloMosaic

/-- The reference's result array is the spike indicator applied to every entry of the input current. -/
theorem result_eq (x : (⟨S16x32x128x32x32, .f32⟩ : BufTy).Contents (Elt Ideal)) :
    val_main_v4 (F := Ideal) x = fun i => Cert.Spike.spike (x i) := by
  funext i
  rw [val_main_v4_apply, val_main_v3_apply, val_main_v1_apply, val_main_v0_apply, val_main_v2_apply,
    val_main_cst_apply, val_main_cst_0_apply]
  exact Cert.Spike.reference_form (x i)

end Cert.ReferenceIdeal.SpikeValue

end
-- ==== Proof.lean ====
/-
  A leaky integrate-and-fire layer whose membrane potential is reset to zero before every time step: the output spike
  at an index depends only on the input current at that index — it is 1 when the current reaches the threshold 1.0
  and 0 otherwise.

  The kernel lays the five-axis current out as a matrix of 524288 rows by 128 lanes, thresholds it in 32 row bands of
  16384 rows, and lays the result back out; the reference adds the zero initial potential to the current, compares
  with the threshold and converts the bit. Both results are the one function "spike indicator of the input, index by
  index" (module Spike defines the indicator on the extended reals; KernelPayload, KernelArray and ReferenceSpike read
  the two programs). The identity used — 0 + y = y — holds on all extended reals, so the finiteness precondition is
  never opened. The pass that idealizes the kernel rewrote nothing, so that conjunct is trivial; the three frames are
  the generated runs.
-/
import proofs.«119878_j17497696764281_2_alg».proof.Defs
import proofs.«119878_j17497696764281_2_alg».proof.Proof.Gen.Kernel
import proofs.«119878_j17497696764281_2_alg».proof.Proof.Gen.Kernel.Skeleton
import proofs.«119878_j17497696764281_2_alg».proof.Proof.Gen.Kernel.Launch
import proofs.«119878_j17497696764281_2_alg».proof.Proof.Gen.Kernel.Points
import proofs.«119878_j17497696764281_2_alg».proof.Proof.Gen.Kernel.Frame
import proofs.«119878_j17497696764281_2_alg».proof.Proof.Gen.KernelIdeal
import proofs.«119878_j17497696764281_2_alg».proof.Proof.Gen.KernelIdeal.Skeleton
import proofs.«119878_j17497696764281_2_alg».proof.Proof.Gen.KernelIdeal.Launch
import proofs.«119878_j17497696764281_2_alg».proof.Proof.Gen.KernelIdeal.Points
import proofs.«119878_j17497696764281_2_alg».proof.Proof.Gen.KernelIdeal.Frame
import proofs.«119878_j17497696764281_2_alg».proof.Proof.Gen.ReferenceIdeal
import proofs.«119878_j17497696764281_2_alg».proof.Proof.Gen.Pre_finite_inputs
import proofs.«119878_j17497696764281_2_alg».proof.Proof.Gen.ReferenceIdeal.Run
import proofs.«119878_j17497696764281_2_alg».proof.Proof.Gen.ReferenceIdeal.Read
import proofs.«119878_j17497696764281_2_alg».proof.Proof.KernelArray
import proofs.«119878_j17497696764281_2_alg».proof.Proof.ReferenceSpike
import Idealize.ShloMosaic.Adequacy
import Idealize.ShloMosaic.Init

noncomputable section

namespace Cert.Proof

open Idealize.ShloMosaic Idealize.ShloMosaic.TcCoe Idealize.SL.Sem

/-- The word-level kernel runs and leaves the input current as it found it. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was idealized. -/
theorem preserves : Cert.preserves_Kernel_KernelIdeal := trivial

/-- From memories agreeing on the input current, both programs end with the spike indicator of that current at every
    index. -/
theorem algebraic : Cert.algebraic_KernelIdeal_ReferenceIdeal := by
  intro m ρ m' ρ' _ hagree
  refine ⟨fun c => fun i => Cert.Spike.spike (m ((c : Thread Cert.KernelIdeal.nD Cert.KernelIdeal.τ).loc Cert.KernelIdeal.main_arg0) i),
    Cert.KernelIdeal.SpikeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.SpikeValue.result_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
